-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2000x64 : Shape := ⟨2, ![2000, 64]⟩
abbrev S2x100000 : Shape := ⟨2, ![2, 100000]⟩
abbrev S2x2000000 : Shape := ⟨2, ![2, 2000000]⟩
abbrev S64x128 : Shape := ⟨2, ![64, 128]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S2000x64 : S_.BroadcastsInDim S2000x64 (![] : Fin 0 → Fin S2000x64.rank)
  reducesTo_S2000x64_S_d0_1 : S2000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S64x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x64 .f32) (main_arg1 : FVec F S2000x64 .f32) (main_arg2 : IVec S2x100000 32) (main_arg3 : IVec S2x2000000 32) (main_arg4 : FVec F S64x128 .f32) (main_arg5 : FVec F S128 .f32) (main_arg6 : FVec F S64x128 .f32) (main_arg7 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S2000x64 .f32 := Host.absf main_arg1
  let main_cst_0 : FVec F S_ .f32 := constant S_ .f32 0x7F800000#32
  let main_v5 : FVec F S2000x64 .f32 := broadcastInDim S2000x64 ![] bcast_S_S2000x64 main_cst_0
  let main_v6 : IVec S2000x64 1 := cmpf .olt main_v4 main_v5
  let main_c_1 : IVec S_ 1 := constantI S_ 1 1#1
  let main_v7 : IVec S_ 1 := (fun x v => Host.reduce IntOp.andi x v reducesTo_S2000x64_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x64 : Shape := ⟨2, ![100000, 64]⟩
abbrev S2000x64 : Shape := ⟨2, ![2000, 64]⟩
abbrev S2x100000 : Shape := ⟨2, ![2, 100000]⟩
abbrev S2x2000000 : Shape := ⟨2, ![2, 2000000]⟩
abbrev S64x128 : Shape := ⟨2, ![64, 128]⟩
abbrev S128 : Shape := ⟨1, ![128]⟩
abbrev S100000x128 : Shape := ⟨2, ![100000, 128]⟩
abbrev S10000x64 : Shape := ⟨2, ![10000, 64]⟩
abbrev S10000x128 : Shape := ⟨2, ![10000, 128]⟩
abbrev S1x128 : Shape := ⟨2, ![1, 128]⟩
abbrev S2000x128 : Shape := ⟨2, ![2000, 128]⟩
abbrev S1x100000 : Shape := ⟨2, ![1, 100000]⟩
abbrev S100000 : Shape := ⟨1, ![100000]⟩
abbrev S_ : Shape := ⟨0, ![]⟩
abbrev S100000x1 : Shape := ⟨2, ![100000, 1]⟩
abbrev S1x2000000 : Shape := ⟨2, ![1, 2000000]⟩
abbrev S2000000 : Shape := ⟨1, ![2000000]⟩
abbrev S2000000x1 : Shape := ⟨2, ![2000000, 1]⟩
abbrev S2000000x128 : Shape := ⟨2, ![2000000, 128]⟩
abbrev S2000 : Shape := ⟨1, ![2000]⟩
abbrev S2000x1 : Shape := ⟨2, ![2000, 1]⟩
abbrev S5000x128 : Shape := ⟨2, ![5000, 128]⟩

abbrev nBuf : Space → Nat
  | .hbm => 98
  | .vmem => 21
  | .smem => 0
  | _ => 0

abbrev bufTy : (tb : Table) → Fin (tcTables nBuf tb) → BufTy
  | .hbm, ⟨0, _⟩ => ⟨S100000x64, .f32⟩
  | .hbm, ⟨1, _⟩ => ⟨S2000x64, .f32⟩
  | .hbm, ⟨2, _⟩ => ⟨S2x100000, .i32⟩
  | .hbm, ⟨3, _⟩ => ⟨S2x2000000, .i32⟩
  | .hbm, ⟨4, _⟩ => ⟨S64x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S100000x128, .f32⟩
  | .hbm, ⟨9, _⟩ => ⟨S2000x128, .f32⟩
  | .hbm, ⟨10, _⟩ => ⟨S1x100000, .i32⟩
  | .hbm, ⟨11, _⟩ => ⟨S100000, .i32⟩
  | .hbm, ⟨12, _⟩ => ⟨S1x100000, .i32⟩
  | .hbm, ⟨13, _⟩ => ⟨S100000, .i32⟩
  | .hbm, ⟨14, _⟩ => ⟨S_, .i32⟩
  | .hbm, ⟨15, _⟩ => ⟨S100000, .i32⟩
  | .hbm, ⟨16, _⟩ => ⟨S100000, .i1⟩
  | .hbm, ⟨17, _⟩ => ⟨S_, .i32⟩
  | .hbm, ⟨18, _⟩ => ⟨S100000, .i32⟩
  | .hbm, ⟨19, _⟩ => ⟨S100000, .i32⟩
  | .hbm, ⟨20, _⟩ => ⟨S100000, .i32⟩
  | .hbm, ⟨21, _⟩ => ⟨S100000x1, .i32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x1, .i32⟩
  | .hbm, ⟨26, _⟩ => ⟨S100000x128, .f32⟩
  | .hbm, ⟨27, _⟩ => ⟨S_, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000x1, .i32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x2000000, .i32⟩
  | .hbm, ⟨41, _⟩ => ⟨S2000000, .i32⟩
  | .hbm, ⟨42, _⟩ => ⟨S1x2000000, .i32⟩
  | .hbm, ⟨43, _⟩ => ⟨S2000000, .i32⟩
  | .hbm, ⟨44, _⟩ => ⟨S_, .i32⟩
  | .hbm, ⟨45, _⟩ => ⟨S2000000, .i32⟩
  | .hbm, ⟨46, _⟩ => ⟨S2000000, .i1⟩
  | .hbm, ⟨47, _⟩ => ⟨S_, .i32⟩
  | .hbm, ⟨48, _⟩ => ⟨S2000000, .i32⟩
  | .hbm, ⟨49, _⟩ => ⟨S2000000, .i32⟩
  | .hbm, ⟨50, _⟩ => ⟨S2000000, .i32⟩
  | .hbm, ⟨51, _⟩ => ⟨S2000000x1, .i32⟩
  | .hbm, ⟨52, _⟩ => ⟨S2000000x128, .f32⟩
  | .hbm, ⟨53, _⟩ => ⟨S_, .f32⟩
  | .hbm, ⟨54, _⟩ => ⟨S2000x128, .f32⟩
  | .hbm, ⟨55, _⟩ => ⟨S2000000x1, .i32⟩
  | .hbm, ⟨56, _⟩ => ⟨S2000x128, .f32⟩
  | .hbm, ⟨57, _⟩ => ⟨S_, .f32⟩
  | .hbm, ⟨58, _⟩ => ⟨S2000000, .f32⟩
  | .hbm, ⟨59, _⟩ => ⟨S_, .f32⟩
  | .hbm, ⟨60, _⟩ => ⟨S2000, .f32⟩
  | .hbm, ⟨61, _⟩ => ⟨S2000000x1, .i32⟩
  | .hbm, ⟨62, _⟩ => ⟨S2000, .f32⟩
  | .hbm, ⟨63, _⟩ => ⟨S_, .f32⟩
  | .hbm, ⟨64, _⟩ => ⟨S_, .f32⟩
  | .hbm, ⟨65, _⟩ => ⟨S2000, .f32⟩
  | .hbm, ⟨66, _⟩ => ⟨S2000, .f32⟩
  | .hbm, ⟨67, _⟩ => ⟨S2000x1, .f32⟩
  | .hbm, ⟨68, _⟩ => ⟨S2000x128, .f32⟩
  | .hbm, ⟨69, _⟩ => ⟨S2000x128, .f32⟩
  | .hbm, ⟨70, _⟩ => ⟨S_, .i32⟩
  | .hbm, ⟨71, _⟩ => ⟨S2000000, .i32⟩
  | .hbm, ⟨72, _⟩ => ⟨S2000000, .i1⟩
  | .hbm, ⟨73, _⟩ => ⟨S_, .i32⟩
  | .hbm, ⟨74, _⟩ => ⟨S2000000, .i32⟩
  | .hbm, ⟨75, _⟩ => ⟨S2000000, .i32⟩
  | .hbm, ⟨76, _⟩ => ⟨S2000000, .i32⟩
  | .hbm, ⟨77, _⟩ => ⟨S2000000x1, .i32⟩
  | .hbm, ⟨78, _⟩ => ⟨S2000000x128, .f32⟩
  | .hbm, ⟨79, _⟩ => ⟨S_, .f32⟩
  | .hbm, ⟨80, _⟩ => ⟨S100000x128, .f32⟩
  | .hbm, ⟨81, _⟩ => ⟨S2000000x1, .i32⟩
  | .hbm, ⟨82, _⟩ => ⟨S100000x128, .f32⟩
  | .hbm, ⟨83, _⟩ => ⟨S_, .f32⟩
  | .hbm, ⟨84, _⟩ => ⟨S2000000, .f32⟩
  | .hbm, ⟨85, _⟩ => ⟨S_, .f32⟩
  | .hbm, ⟨86, _⟩ => ⟨S100000, .f32⟩
  | .hbm, ⟨87, _⟩ => ⟨S2000000x1, .i32⟩
  | .hbm, ⟨88, _⟩ => ⟨S100000, .f32⟩
  | .hbm, ⟨89, _⟩ => ⟨S_, .f32⟩
  | .hbm, ⟨90, _⟩ => ⟨S_, .f32⟩
  | .hbm, ⟨91, _⟩ => ⟨S100000, .f32⟩
  | .hbm, ⟨92, _⟩ => ⟨S100000, .f32⟩
  | .hbm, ⟨93, _⟩ => ⟨S100000x1, .f32⟩
  | .hbm, ⟨94, _⟩ => ⟨S100000x128, .f32⟩
  | .hbm, ⟨95, _⟩ => ⟨S100000x128, .f32⟩
  | .hbm, ⟨96, _⟩ => ⟨S100000x128, .f32⟩
  | .hbm, ⟨97, _⟩ => ⟨S2000x128, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S128, .f32⟩
  | .local _ .vmem, ⟨4, _⟩ => ⟨S10000x128, .f32⟩
  | .local _ .vmem, ⟨5, _⟩ => ⟨S10000x128, .f32⟩
  | .local _ .vmem, ⟨6, _⟩ => ⟨S2000x64, .f32⟩
  | .local _ .vmem, ⟨7, _⟩ => ⟨S64x128, .f32⟩
  | .local _ .vmem, ⟨8, _⟩ => ⟨S128, .f32⟩
  | .local _ .vmem, ⟨9, _⟩ => ⟨S2000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_call1_v0 : Ref sig .tc := ⟨.hbm, 64, rfl⟩
abbrev main_call1_v1 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_cst_14 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_15 : Ref sig .tc := ⟨.hbm, 89, rfl⟩
abbrev main_call2_v0 : Ref sig .tc := ⟨.hbm, 90, rfl⟩
abbrev main_call2_v1 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem1_0 : DmaSem sig := 19
abbrev cc3_sem2_0 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2000x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2000x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S2000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S2000x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S2000x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

class Facts₀ : Prop where
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  inb_S2000x64_S2000x64_0_0 : ∀ a, (![0, 0] : Fin 2 → Nat) a + S2000x64.size a ≤ S2000x64.size a
  h_S2000x64 : 0 < S2000x64.numel
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000x128 : S_.BroadcastsInDim S2000x128 (![] : Fin 0 → Fin S2000x128.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S2000x128_S2000x128 : S2000x128.ShapeCasts S2000x128
  dot_S10000x64_S64x128_S10000x128_1_0_0_1_n_n_wf : DotDims.WF S10000x64 S64x128 S10000x128 [1] [0] [0] [1] [] []
  dot_S2000x64_S64x128_S2000x128_1_0_0_1_n_n_wf : DotDims.WF S2000x64 S64x128 S2000x128 [1] [0] [0] [1] [] []
  gather_S100000x128_S100000x1_S100000x128_1_0_n_n_0_1_1128_wf : GatherDims.WF S100000x128 S100000x1 S100000x128 [1] [0] [] [0] [] 1 ![1, 128]
  scatter_S100000x128_S100000x1_S100000x128_1_0_0_1_wf : ScatterDims.WF S100000x128 S100000x1 S100000x128 [1] [0] [0] 1
  scatter_S100000_S100000x1_S100000_n_0_0_1_wf : ScatterDims.WF S100000 S100000x1 S100000 [] [0] [0] 1
  gather_S100000x128_S2000000x1_S2000000x128_1_0_n_n_0_1_1128_wf : GatherDims.WF S100000x128 S2000000x1 S2000000x128 [1] [0] [] [0] [] 1 ![1, 128]
  scatter_S2000x128_S2000000x1_S2000000x128_1_0_0_1_wf : ScatterDims.WF S2000x128 S2000000x1 S2000000x128 [1] [0] [0] 1
  scatter_S2000_S2000000x1_S2000000_n_0_0_1_wf : ScatterDims.WF S2000 S2000000x1 S2000000 [] [0] [0] 1
  gather_S2000x128_S2000000x1_S2000000x128_1_0_n_n_0_1_1128_wf : GatherDims.WF S2000x128 S2000000x1 S2000000x128 [1] [0] [] [0] [] 1 ![1, 128]
  scatter_S100000x128_S2000000x1_S2000000x128_1_0_0_1_wf : ScatterDims.WF S100000x128 S2000000x1 S2000000x128 [1] [0] [0] 1
  scatter_S100000_S2000000x1_S2000000_n_0_0_1_wf : ScatterDims.WF S100000 S2000000x1 S2000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S2000x64.size a
  hwx1_0 : ∀ i : grid1.Coords, EltTy.bits .f32 = 32 ∨ (Rect.block (s := S2000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S2000x128.size a
  hwx1_3 : ∀ i : grid1.Coords, EltTy.bits .f32 = 32 ∨ (Rect.block (s := S2000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S2000x128.size a
  hwx3_0 : ∀ i : grid3.Coords, EltTy.bits .f32 = 32 ∨ (Rect.block (s := S2000x128) S2000x128.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S2000x128.size a
  hwx3_1 : ∀ i : grid3.Coords, EltTy.bits .f32 = 32 ∨ (Rect.block (s := S2000x128) S2000x128.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S2000x128.size a
  hwx3_2 : ∀ i : grid3.Coords, EltTy.bits .f32 = 32 ∨ (Rect.block (s := S2000x128) S2000x128.size (cc3_transform_2 i) (hinb3_2 i)).WholeWords (EltTy.packing .f32)

variable [Facts₀]

def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S2000x128_S2000000x1_S2000000x128_1_0_0_1 : ScatterDims S2000x128 S2000000x1 S2000000x128 where
  updateWindowDims := [1]
  insertedWindowDims := [0]
  scatterDimsToOperandDims := [0]
  indexVectorDim := 1
  wf := scatter_S2000x128_S2000000x1_S2000000x128_1_0_0_1_wf
def scatter_S2000_S2000000x1_S2000000_n_0_0_1 : ScatterDims S2000 S2000000x1 S2000000 where
  updateWindowDims := []
  insertedWindowDims := [0]
  scatterDimsToOperandDims := [0]
  indexVectorDim := 1
  wf := scatter_S2000_S2000000x1_S2000000_n_0_0_1_wf
def gather_S2000x128_S2000000x1_S2000000x128_1_0_n_n_0_1_1128 : GatherDims S2000x128 S2000000x1 S2000000x128 where
  offsetDims := [1]
  collapsedSliceDims := [0]
  operandBatchingDims := []
  startIndicesBatchingDims := []
  startIndexMap := [0]
  indexVectorDim := 1
  sliceSizes := ![1, 128]
  wf := gather_S2000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x64.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S2000x128.size cc1_transform_3 reads1_3 true false 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v64) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v1) S2000x128.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v45) S2000x128.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S2000x128.size cc3_transform_2 reads3_2 true false 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2000x64 : Shape := ⟨2, ![2000, 64]⟩
abbrev S2x100000 : Shape := ⟨2, ![2, 100000]⟩
abbrev S2x2000000 : Shape := ⟨2, ![2, 2000000]⟩
abbrev S64x128 : Shape := ⟨2, ![64, 128]⟩
abbrev S128 : Shape := ⟨1, ![128]⟩
abbrev S100000x128 : Shape := ⟨2, ![100000, 128]⟩
abbrev S1x128 : Shape := ⟨2, ![1, 128]⟩
abbrev S2000x128 : Shape := ⟨2, ![2000, 128]⟩
abbrev S1x100000 : Shape := ⟨2, ![1, 100000]⟩
abbrev S100000 : Shape := ⟨1, ![100000]⟩
abbrev S_ : Shape := ⟨0, ![]⟩
abbrev S100000x1 : Shape := ⟨2, ![100000, 1]⟩
abbrev S1x2000000 : Shape := ⟨2, ![1, 2000000]⟩
abbrev S2000000 : Shape := ⟨1, ![2000000]⟩
abbrev S2000000x1 : Shape := ⟨2, ![2000000, 1]⟩
abbrev S2000000x128 : Shape := ⟨2, ![2000000, 128]⟩
abbrev S2000 : Shape := ⟨1, ![2000]⟩
abbrev S2000x1 : Shape := ⟨2, ![2000, 1]⟩

abbrev nBuf : Space → Nat
  | .hbm => 111
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2000x64, .f32⟩
  | .hbm, ⟨2, _⟩ => ⟨S2x100000, .i32⟩
  | .hbm, ⟨3, _⟩ => ⟨S2x2000000, .i32⟩
  | .hbm, ⟨4, _⟩ => ⟨S64x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S2000x128, .f32⟩
  | .hbm, ⟨13, _⟩ => ⟨S1x128, .f32⟩
  | .hbm, ⟨14, _⟩ => ⟨S2000x128, .f32⟩
  | .hbm, ⟨15, _⟩ => ⟨S2000x128, .f32⟩
  | .hbm, ⟨16, _⟩ => ⟨S1x100000, .i32⟩
  | .hbm, ⟨17, _⟩ => ⟨S100000, .i32⟩
  | .hbm, ⟨18, _⟩ => ⟨S1x100000, .i32⟩
  | .hbm, ⟨19, _⟩ => ⟨S100000, .i32⟩
  | .hbm, ⟨20, _⟩ => ⟨S_, .i32⟩
  | .hbm, ⟨21, _⟩ => ⟨S100000, .i32⟩
  | .hbm, ⟨22, _⟩ => ⟨S100000, .i1⟩
  | .hbm, ⟨23, _⟩ => ⟨S_, .i32⟩
  | .hbm, ⟨24, _⟩ => ⟨S100000, .i32⟩
  | .hbm, ⟨25, _⟩ => ⟨S100000, .i32⟩
  | .hbm, ⟨26, _⟩ => ⟨S100000, .i32⟩
  | .hbm, ⟨27, _⟩ => ⟨S100000x1, .i32⟩
  | .hbm, ⟨28, _⟩ => ⟨S100000x128, .f32⟩
  | .hbm, ⟨29, _⟩ => ⟨S_, .f32⟩
  | .hbm, ⟨30, _⟩ => ⟨S100000x128, .f32⟩
  | .hbm, ⟨31, _⟩ => ⟨S100000x1, .i32⟩
  | .hbm, ⟨32, _⟩ => ⟨S100000x128, .f32⟩
  | .hbm, ⟨33, _⟩ => ⟨S_, .f32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000x1, .i32⟩
  | .hbm, ⟨38, _⟩ => ⟨S100000, .f32⟩
  | .hbm, ⟨39, _⟩ => ⟨S_, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S1x2000000, .i32⟩
  | .hbm, ⟨47, _⟩ => ⟨S2000000, .i32⟩
  | .hbm, ⟨48, _⟩ => ⟨S1x2000000, .i32⟩
  | .hbm, ⟨49, _⟩ => ⟨S2000000, .i32⟩
  | .hbm, ⟨50, _⟩ => ⟨S_, .i32⟩
  | .hbm, ⟨51, _⟩ => ⟨S2000000, .i32⟩
  | .hbm, ⟨52, _⟩ => ⟨S2000000, .i1⟩
  | .hbm, ⟨53, _⟩ => ⟨S_, .i32⟩
  | .hbm, ⟨54, _⟩ => ⟨S2000000, .i32⟩
  | .hbm, ⟨55, _⟩ => ⟨S2000000, .i32⟩
  | .hbm, ⟨56, _⟩ => ⟨S2000000, .i32⟩
  | .hbm, ⟨57, _⟩ => ⟨S2000000x1, .i32⟩
  | .hbm, ⟨58, _⟩ => ⟨S2000000x128, .f32⟩
  | .hbm, ⟨59, _⟩ => ⟨S_, .f32⟩
  | .hbm, ⟨60, _⟩ => ⟨S2000x128, .f32⟩
  | .hbm, ⟨61, _⟩ => ⟨S2000000x1, .i32⟩
  | .hbm, ⟨62, _⟩ => ⟨S2000x128, .f32⟩
  | .hbm, ⟨63, _⟩ => ⟨S_, .f32⟩
  | .hbm, ⟨64, _⟩ => ⟨S2000000, .f32⟩
  | .hbm, ⟨65, _⟩ => ⟨S_, .f32⟩
  | .hbm, ⟨66, _⟩ => ⟨S2000, .f32⟩
  | .hbm, ⟨67, _⟩ => ⟨S2000000x1, .i32⟩
  | .hbm, ⟨68, _⟩ => ⟨S2000, .f32⟩
  | .hbm, ⟨69, _⟩ => ⟨S_, .f32⟩
  | .hbm, ⟨70, _⟩ => ⟨S_, .f32⟩
  | .hbm, ⟨71, _⟩ => ⟨S2000, .f32⟩
  | .hbm, ⟨72, _⟩ => ⟨S2000, .f32⟩
  | .hbm, ⟨73, _⟩ => ⟨S2000x1, .f32⟩
  | .hbm, ⟨74, _⟩ => ⟨S2000x128, .f32⟩
  | .hbm, ⟨75, _⟩ => ⟨S2000x128, .f32⟩
  | .hbm, ⟨76, _⟩ => ⟨S_, .i32⟩
  | .hbm, ⟨77, _⟩ => ⟨S2000000, .i32⟩
  | .hbm, ⟨78, _⟩ => ⟨S2000000, .i1⟩
  | .hbm, ⟨79, _⟩ => ⟨S_, .i32⟩
  | .hbm, ⟨80, _⟩ => ⟨S2000000, .i32⟩
  | .hbm, ⟨81, _⟩ => ⟨S2000000, .i32⟩
  | .hbm, ⟨82, _⟩ => ⟨S2000000, .i32⟩
  | .hbm, ⟨83, _⟩ => ⟨S2000000x1, .i32⟩
  | .hbm, ⟨84, _⟩ => ⟨S2000000x128, .f32⟩
  | .hbm, ⟨85, _⟩ => ⟨S_, .f32⟩
  | .hbm, ⟨86, _⟩ => ⟨S100000x128, .f32⟩
  | .hbm, ⟨87, _⟩ => ⟨S2000000x1, .i32⟩
  | .hbm, ⟨88, _⟩ => ⟨S100000x128, .f32⟩
  | .hbm, ⟨89, _⟩ => ⟨S_, .f32⟩
  | .hbm, ⟨90, _⟩ => ⟨S2000000, .f32⟩
  | .hbm, ⟨91, _⟩ => ⟨S_, .f32⟩
  | .hbm, ⟨92, _⟩ => ⟨S100000, .f32⟩
  | .hbm, ⟨93, _⟩ => ⟨S2000000x1, .i32⟩
  | .hbm, ⟨94, _⟩ => ⟨S100000, .f32⟩
  | .hbm, ⟨95, _⟩ => ⟨S_, .f32⟩
  | .hbm, ⟨96, _⟩ => ⟨S_, .f32⟩
  | .hbm, ⟨97, _⟩ => ⟨S100000, .f32⟩
  | .hbm, ⟨98, _⟩ => ⟨S100000, .f32⟩
  | .hbm, ⟨99, _⟩ => ⟨S100000x1, .f32⟩
  | .hbm, ⟨100, _⟩ => ⟨S100000x128, .f32⟩
  | .hbm, ⟨101, _⟩ => ⟨S100000x128, .f32⟩
  | .hbm, ⟨102, _⟩ => ⟨S100000x128, .f32⟩
  | .hbm, ⟨103, _⟩ => ⟨S100000x128, .f32⟩
  | .hbm, ⟨104, _⟩ => ⟨S_, .f32⟩
  | .hbm, ⟨105, _⟩ => ⟨S100000x128, .f32⟩
  | .hbm, ⟨106, _⟩ => ⟨S100000x128, .f32⟩
  | .hbm, ⟨107, _⟩ => ⟨S2000x128, .f32⟩
  | .hbm, ⟨108, _⟩ => ⟨S_, .f32⟩
  | .hbm, ⟨109, _⟩ => ⟨S2000x128, .f32⟩
  | .hbm, ⟨110, _⟩ => ⟨S2000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_call1_v0 : Ref sig .tc := ⟨.hbm, 70, rfl⟩
abbrev main_call1_v1 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_cst_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_15 : Ref sig .tc := ⟨.hbm, 95, rfl⟩
abbrev main_call2_v0 : Ref sig .tc := ⟨.hbm, 96, rfl⟩
abbrev main_call2_v1 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_call3_cst : Ref sig .tc := ⟨.hbm, 104, rfl⟩
abbrev main_call3_v0 : Ref sig .tc := ⟨.hbm, 105, rfl⟩
abbrev main_v72 : Ref sig .tc := ⟨.hbm, 106, rfl⟩
abbrev main_v73 : Ref sig .tc := ⟨.hbm, 107, rfl⟩
abbrev main_call4_cst : Ref sig .tc := ⟨.hbm, 108, rfl⟩
abbrev main_call4_v0 : Ref sig .tc := ⟨.hbm, 109, rfl⟩
abbrev main_v74 : Ref sig .tc := ⟨.hbm, 110, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S2000x128_0_1 : S1x128.BroadcastsInDim S2000x128 (![0, 1] : Fin 2 → Fin S2000x128.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000x128 : S_.BroadcastsInDim S2000x128 (![] : Fin 0 → Fin S2000x128.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  dot_S100000x64_S64x128_S100000x128_1_0_0_1_n_n_wf : DotDims.WF S100000x64 S64x128 S100000x128 [1] [0] [0] [1] [] []
  dot_S2000x64_S64x128_S2000x128_1_0_0_1_n_n_wf : DotDims.WF S2000x64 S64x128 S2000x128 [1] [0] [0] [1] [] []
  gather_S100000x128_S100000x1_S100000x128_1_0_n_n_0_1_1128_wf : GatherDims.WF S100000x128 S100000x1 S100000x128 [1] [0] [] [0] [] 1 ![1, 128]
  scatter_S100000x128_S100000x1_S100000x128_1_0_0_1_wf : ScatterDims.WF S100000x128 S100000x1 S100000x128 [1] [0] [0] 1
  scatter_S100000_S100000x1_S100000_n_0_0_1_wf : ScatterDims.WF S100000 S100000x1 S100000 [] [0] [0] 1
  gather_S100000x128_S2000000x1_S2000000x128_1_0_n_n_0_1_1128_wf : GatherDims.WF S100000x128 S2000000x1 S2000000x128 [1] [0] [] [0] [] 1 ![1, 128]
  scatter_S2000x128_S2000000x1_S2000000x128_1_0_0_1_wf : ScatterDims.WF S2000x128 S2000000x1 S2000000x128 [1] [0] [0] 1
  scatter_S2000_S2000000x1_S2000000_n_0_0_1_wf : ScatterDims.WF S2000 S2000000x1 S2000000 [] [0] [0] 1
  gather_S2000x128_S2000000x1_S2000000x128_1_0_n_n_0_1_1128_wf : GatherDims.WF S2000x128 S2000000x1 S2000000x128 [1] [0] [] [0] [] 1 ![1, 128]
  scatter_S100000x128_S2000000x1_S2000000x128_1_0_0_1_wf : ScatterDims.WF S100000x128 S2000000x1 S2000000x128 [1] [0] [0] 1
  scatter_S100000_S2000000x1_S2000000_n_0_0_1_wf : ScatterDims.WF S100000 S2000000x1 S2000000 [] [0] [0] 1

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S2000x128_S2000000x1_S2000000x128_1_0_0_1 : ScatterDims S2000x128 S2000000x1 S2000000x128 where
  updateWindowDims := [1]
  insertedWindowDims := [0]
  scatterDimsToOperandDims := [0]
  indexVectorDim := 1
  wf := scatter_S2000x128_S2000000x1_S2000000x128_1_0_0_1_wf
def scatter_S2000_S2000000x1_S2000000_n_0_0_1 : ScatterDims S2000 S2000000x1 S2000000 where
  updateWindowDims := []
  insertedWindowDims := [0]
  scatterDimsToOperandDims := [0]
  indexVectorDim := 1
  wf := scatter_S2000_S2000000x1_S2000000_n_0_0_1_wf
def gather_S2000x128_S2000000x1_S2000000x128_1_0_n_n_0_1_1128 : GatherDims S2000x128 S2000000x1 S2000000x128 where
  offsetDims := [1]
  collapsedSliceDims := [0]
  operandBatchingDims := []
  startIndicesBatchingDims := []
  startIndexMap := [0]
  indexVectorDim := 1
  sliceSizes := ![1, 128]
  wf := gather_S2000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf

class Facts : Prop extends Facts₀ where

variable [Facts]
-- ==== Proof.Layer.lean ====
/-
  The layer as whole-array functions of its arguments.

  Both programs compute, for operator features X_op [100000, 64] and machine features X_m [2000, 64]:
  the projections P_op = X_op · W_op + b_op and P_m = X_m · W_m + b_m; three mean aggregations over edge lists
  (each: gather the source rows, add them into their destination rows, divide each destination row by its
  in-degree clipped below at 1); and the two outputs max(P_op + A_seq + A_m→op, 0) and max(P_m + A_op→m, 0).
  Here each of these is ONE function of whole arrays, written with the host program's operations, so that
  "the kernel computes the layer" and "the reference computes the layer" are statements about the same terms.
-/
import proofs.«137472_j10496900072192_1_alg».proof.ReferenceIdeal
import proofs.«137472_j10496900072192_1_alg».proof.Proof.Gen.ReferenceIdeal

noncomputable section

namespace Cert.Layer

open Idealize.ShloMosaic Cert.ReferenceIdeal Cert.ReferenceIdeal.Facts₀ Cert.ReferenceIdeal.Facts

variable {F : FTy → Type} [FloatOps F]

/-- Operator projection: X · W + b, the bias laid out as one row and stretched over the rows. -/
def projOp (x : (⟨S100000x64, .f32⟩ : BufTy).Contents (Elt F)) (w : (⟨S64x128, .f32⟩ : BufTy).Contents (Elt F)) (b : (⟨S128, .f32⟩ : BufTy).Contents (Elt F)) : (⟨S100000x128, .f32⟩ : BufTy).Contents (Elt F) :=
  addf (Host.dotGeneral dot_S100000x64_S64x128_S100000x128_1_0_0_1_n_n none x w) (broadcastInDim S100000x128 ![0, 1] bcast_S1x128_S100000x128_0_1 (broadcastInDim S1x128 ![1] bcast_S128_S1x128_1 b))

/-- Machine projection: X · W + b. -/
def projM (x : (⟨S2000x64, .f32⟩ : BufTy).Contents (Elt F)) (w : (⟨S64x128, .f32⟩ : BufTy).Contents (Elt F)) (b : (⟨S128, .f32⟩ : BufTy).Contents (Elt F)) : (⟨S2000x128, .f32⟩ : BufTy).Contents (Elt F) :=
  addf (Host.dotGeneral dot_S2000x64_S64x128_S2000x128_1_0_0_1_n_n none x w) (broadcastInDim S2000x128 ![0, 1] bcast_S1x128_S2000x128_0_1 (broadcastInDim S1x128 ![1] bcast_S128_S1x128_1 b))

/-- Mean over the sequence edges (operator → operator): sources are row 0 of the edge list, destinations row 1. -/
def aggSeq (p : (⟨S100000x128, .f32⟩ : BufTy).Contents (Elt F)) (e : (⟨S2x100000, .i32⟩ : BufTy).Contents (Elt F)) : (⟨S100000x128, .f32⟩ : BufTy).Contents (Elt F) :=
  Host.divf (Host.scatterAdd scatter_S100000x128_S100000x1_S100000x128_1_0_0_1 (broadcastInDim S100000x128 ![] bcast_S_S100000x128 (constant S_ .f32 0x00000000#32)) (broadcastInDim S100000x1 ![0] bcast_S100000_S100000x1_0 (shapeCast _ (extractStridedSlice S1x100000 ![1, 0] e slices_S2x100000_S1x100000_1_0) shapeCasts_S1x100000_S100000)) (Host.gather gather_S100000x128_S100000x1_S100000x128_1_0_n_n_0_1_1128 p (broadcastInDim S100000x1 ![0] bcast_S100000_S100000x1_0 (select (cmpi .slt (shapeCast _ (extractStridedSlice S1x100000 ![0, 0] e slices_S2x100000_S1x100000_0_0) shapeCasts_S1x100000_S100000) (broadcastInDim S100000 ![] bcast_S_S100000 (constantI S_ 32 0#32))) (addi (shapeCast _ (extractStridedSlice S1x100000 ![0, 0] e slices_S2x100000_S1x100000_0_0) shapeCasts_S1x100000_S100000) (broadcastInDim S100000 ![] bcast_S_S100000 (constantI S_ 32 100000#32))) (shapeCast _ (extractStridedSlice S1x100000 ![0, 0] e slices_S2x100000_S1x100000_0_0) shapeCasts_S1x100000_S100000))))) (broadcastInDim S100000x128 ![0, 1] bcast_S100000x1_S100000x128_0_1 (broadcastInDim S100000x1 ![0] bcast_S100000_S100000x1_0 (maximumf (broadcastInDim S100000 ![] bcast_S_S100000 (id (constant S_ .f32 0x3F800000#32))) (Host.scatterAdd scatter_S100000_S100000x1_S100000_n_0_0_1 (broadcastInDim S100000 ![] bcast_S_S100000 (constant S_ .f32 0x00000000#32)) (broadcastInDim S100000x1 ![0] bcast_S100000_S100000x1_0 (shapeCast _ (extractStridedSlice S1x100000 ![1, 0] e slices_S2x100000_S1x100000_1_0) shapeCasts_S1x100000_S100000)) (broadcastInDim S100000 ![] bcast_S_S100000 (constant S_ .f32 0x3F800000#32))))))

/-- Mean over the operator → machine edges: operator rows (row 0 of the edge list) averaged into machine rows (row 1). -/
def aggToM (p : (⟨S100000x128, .f32⟩ : BufTy).Contents (Elt F)) (e : (⟨S2x2000000, .i32⟩ : BufTy).Contents (Elt F)) : (⟨S2000x128, .f32⟩ : BufTy).Contents (Elt F) :=
  Host.divf (Host.scatterAdd scatter_S2000x128_S2000000x1_S2000000x128_1_0_0_1 (broadcastInDim S2000x128 ![] bcast_S_S2000x128 (constant S_ .f32 0x00000000#32)) (broadcastInDim S2000000x1 ![0] bcast_S2000000_S2000000x1_0 (shapeCast _ (extractStridedSlice S1x2000000 ![1, 0] e slices_S2x2000000_S1x2000000_1_0) shapeCasts_S1x2000000_S2000000)) (Host.gather gather_S100000x128_S2000000x1_S2000000x128_1_0_n_n_0_1_1128 p (broadcastInDim S2000000x1 ![0] bcast_S2000000_S2000000x1_0 (select (cmpi .slt (shapeCast _ (extractStridedSlice S1x2000000 ![0, 0] e slices_S2x2000000_S1x2000000_0_0) shapeCasts_S1x2000000_S2000000) (broadcastInDim S2000000 ![] bcast_S_S2000000 (constantI S_ 32 0#32))) (addi (shapeCast _ (extractStridedSlice S1x2000000 ![0, 0] e slices_S2x2000000_S1x2000000_0_0) shapeCasts_S1x2000000_S2000000) (broadcastInDim S2000000 ![] bcast_S_S2000000 (constantI S_ 32 100000#32))) (shapeCast _ (extractStridedSlice S1x2000000 ![0, 0] e slices_S2x2000000_S1x2000000_0_0) shapeCasts_S1x2000000_S2000000))))) (broadcastInDim S2000x128 ![0, 1] bcast_S2000x1_S2000x128_0_1 (broadcastInDim S2000x1 ![0] bcast_S2000_S2000x1_0 (maximumf (broadcastInDim S2000 ![] bcast_S_S2000 (id (constant S_ .f32 0x3F800000#32))) (Host.scatterAdd scatter_S2000_S2000000x1_S2000000_n_0_0_1 (broadcastInDim S2000 ![] bcast_S_S2000 (constant S_ .f32 0x00000000#32)) (broadcastInDim S2000000x1 ![0] bcast_S2000000_S2000000x1_0 (shapeCast _ (extractStridedSlice S1x2000000 ![1, 0] e slices_S2x2000000_S1x2000000_1_0) shapeCasts_S1x2000000_S2000000)) (broadcastInDim S2000000 ![] bcast_S_S2000000 (constant S_ .f32 0x3F800000#32))))))

/-- Mean over the same edges reversed: machine rows (row 1 of the edge list) averaged into operator rows (row 0). -/
def aggToOp (p : (⟨S2000x128, .f32⟩ : BufTy).Contents (Elt F)) (e : (⟨S2x2000000, .i32⟩ : BufTy).Contents (Elt F)) : (⟨S100000x128, .f32⟩ : BufTy).Contents (Elt F) :=
  Host.divf (Host.scatterAdd scatter_S100000x128_S2000000x1_S2000000x128_1_0_0_1 (broadcastInDim S100000x128 ![] bcast_S_S100000x128 (constant S_ .f32 0x00000000#32)) (broadcastInDim S2000000x1 ![0] bcast_S2000000_S2000000x1_0 (shapeCast _ (extractStridedSlice S1x2000000 ![0, 0] e slices_S2x2000000_S1x2000000_0_0) shapeCasts_S1x2000000_S2000000)) (Host.gather gather_S2000x128_S2000000x1_S2000000x128_1_0_n_n_0_1_1128 p (broadcastInDim S2000000x1 ![0] bcast_S2000000_S2000000x1_0 (select (cmpi .slt (shapeCast _ (extractStridedSlice S1x2000000 ![1, 0] e slices_S2x2000000_S1x2000000_1_0) shapeCasts_S1x2000000_S2000000) (broadcastInDim S2000000 ![] bcast_S_S2000000 (constantI S_ 32 0#32))) (addi (shapeCast _ (extractStridedSlice S1x2000000 ![1, 0] e slices_S2x2000000_S1x2000000_1_0) shapeCasts_S1x2000000_S2000000) (broadcastInDim S2000000 ![] bcast_S_S2000000 (constantI S_ 32 2000#32))) (shapeCast _ (extractStridedSlice S1x2000000 ![1, 0] e slices_S2x2000000_S1x2000000_1_0) shapeCasts_S1x2000000_S2000000))))) (broadcastInDim S100000x128 ![0, 1] bcast_S100000x1_S100000x128_0_1 (broadcastInDim S100000x1 ![0] bcast_S100000_S100000x1_0 (maximumf (broadcastInDim S100000 ![] bcast_S_S100000 (id (constant S_ .f32 0x3F800000#32))) (Host.scatterAdd scatter_S100000_S2000000x1_S2000000_n_0_0_1 (broadcastInDim S100000 ![] bcast_S_S100000 (constant S_ .f32 0x00000000#32)) (broadcastInDim S2000000x1 ![0] bcast_S2000000_S2000000x1_0 (shapeCast _ (extractStridedSlice S1x2000000 ![0, 0] e slices_S2x2000000_S1x2000000_0_0) shapeCasts_S1x2000000_S2000000)) (broadcastInDim S2000000 ![] bcast_S_S2000000 (constant S_ .f32 0x3F800000#32))))))

/-- New operator features: max(P + A + B, 0). -/
def outOp (p a b : (⟨S100000x128, .f32⟩ : BufTy).Contents (Elt F)) : (⟨S100000x128, .f32⟩ : BufTy).Contents (Elt F) :=
  maximumf (addf (addf p a) b) (broadcastInDim S100000x128 ![] bcast_S_S100000x128 (constant S_ .f32 0x00000000#32))

/-- New machine features: max(P + A, 0). -/
def outM (p a : (⟨S2000x128, .f32⟩ : BufTy).Contents (Elt F)) : (⟨S2000x128, .f32⟩ : BufTy).Contents (Elt F) :=
  maximumf (addf p a) (broadcastInDim S2000x128 ![] bcast_S_S2000x128 (constant S_ .f32 0x00000000#32))

/-- The first result of the layer as a function of the eight arguments. -/
def resultOp (x0 : (⟨S100000x64, .f32⟩ : BufTy).Contents (Elt F)) (x1 : (⟨S2000x64, .f32⟩ : BufTy).Contents (Elt F)) (e2 : (⟨S2x100000, .i32⟩ : BufTy).Contents (Elt F)) (e3 : (⟨S2x2000000, .i32⟩ : BufTy).Contents (Elt F))
    (w4 : (⟨S64x128, .f32⟩ : BufTy).Contents (Elt F)) (b5 : (⟨S128, .f32⟩ : BufTy).Contents (Elt F)) (w6 : (⟨S64x128, .f32⟩ : BufTy).Contents (Elt F)) (b7 : (⟨S128, .f32⟩ : BufTy).Contents (Elt F)) : (⟨S100000x128, .f32⟩ : BufTy).Contents (Elt F) :=
  outOp (projOp x0 w4 b5) (aggSeq (projOp x0 w4 b5) e2) (aggToOp (projM x1 w6 b7) e3)

/-- The second result of the layer. -/
def resultM (x0 : (⟨S100000x64, .f32⟩ : BufTy).Contents (Elt F)) (x1 : (⟨S2000x64, .f32⟩ : BufTy).Contents (Elt F)) (e3 : (⟨S2x2000000, .i32⟩ : BufTy).Contents (Elt F))
    (w4 : (⟨S64x128, .f32⟩ : BufTy).Contents (Elt F)) (b5 : (⟨S128, .f32⟩ : BufTy).Contents (Elt F)) (w6 : (⟨S64x128, .f32⟩ : BufTy).Contents (Elt F)) (b7 : (⟨S128, .f32⟩ : BufTy).Contents (Elt F)) : (⟨S2000x128, .f32⟩ : BufTy).Contents (Elt F) :=
  outM (projM x1 w6 b7) (aggToM (projOp x0 w4 b5) e3)

end Cert.Layer

end
-- ==== Proof.RefSide.lean ====
/-
  The reference's run, read as the layer.

  The reference is one line of host operations; its run ends with each result at the operations' composed term of the
  launch contents of the arguments.  Those terms are the layer's two result functions of the eight arguments: the
  same operations in the same order, with the two projections named.
-/
import proofs.«137472_j10496900072192_1_alg».proof.Proof.Gen.ReferenceIdeal.Run
import proofs.«137472_j10496900072192_1_alg».proof.Proof.Layer

set_option maxRecDepth 16384

noncomputable section

open Idealize.ShloMosaic Idealize.ShloMosaic.TcCoe Idealize.SL.Sem

namespace Cert.ReferenceIdeal.Whole

open Cert.ReferenceIdeal Cert.ReferenceIdeal.Gen

variable {F : FTy → Type} [FloatOps F]

/-- The first result's term is the layer's first result function of the arguments. -/
theorem out0_eq (m : (ℓ : Loc nD τ sig) → Buf (Elt F) ℓ) (c : Dev nD) :
    Cert.ReferenceIdeal.Value.res_out0 m c
      = Cert.Layer.resultOp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.Value.res_out0 Cert.ReferenceIdeal.Value.res_main_v72 Cert.Layer.resultOp Cert.Layer.outOp Cert.Layer.aggSeq Cert.Layer.aggToOp Cert.Layer.projOp Cert.Layer.projM
  rfl

/-- The reference's run with both results stated as the layer's functions of the arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72) = Cert.Layer.resultOp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v74) = Cert.Layer.resultM (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (out0_eq m c),
      (h c).2.1.trans (by unfold Cert.Layer.resultM Cert.Layer.outM Cert.Layer.aggToM Cert.Layer.projOp Cert.Layer.projM; rfl),
      (h c).2.2⟩)
    (Cert.ReferenceIdeal.Value.run m ρ)

end Cert.ReferenceIdeal.Whole

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«137472_j10496900072192_1_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.Projections.lean ====
/-
  The two projection launches as whole-array functions.

  Each launch cuts the rows of X into blocks, multiplies a block by the whole weight matrix into a zero accumulator and
  adds the bias stretched over the block's rows.  At the ideal values (rounding to a narrower format is the identity)
  a block entry is the entry of X · W + b at the block's place in the array, and the blocks tile the rows; so after
  the launch the output array is X · W + b, whatever the arrays X, W, b were when the launch was entered.
-/
import proofs.«137472_j10496900072192_1_alg».proof.Proof.Gen.KernelIdeal.Frame
import proofs.«137472_j10496900072192_1_alg».proof.Proof.Layer
import proofs.«137472_j10496900072192_1_alg».proof.Proof.LibRowBlocks
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

/-! ## Launch 0: the projection of 100000 rows in 10 blocks of 10000 -/

namespace Cert.KernelIdeal.Proj0

open Cert.KernelIdeal Cert.KernelIdeal.Gen Cert.Lib.PlainDot Cert.Bridge

theorem hz2 : (![0, 0] : Fin 2 → Nat) = fun _ => 0 := funext fun a => by fin_cases a <;> rfl
theorem hz1 : (![0] : Fin 1 → Nat) = fun _ => 0 := funext fun a => by fin_cases a <;> rfl

/-- One block of the launch, read at an entry: the bias is laid out as one row and stretched over the block's rows,
    the product is taken into a zero accumulator, rounding the operands changes nothing at the ideal values; so the
    entry is the whole-array projection read where the entry sits in the array. -/
theorem block_apply (X : FVec Ideal S100000x64 .f32) (W : FVec Ideal S64x128 .f32) (b : FVec Ideal S128 .f32)
    (x0 : Vec Ideal S10000x64 .f32) (x1 : Vec Ideal S64x128 .f32) (x2 : Vec Ideal S128 .f32)
    (e0 : S10000x64.Idx → S100000x64.Idx) (e1 : S64x128.Idx → S64x128.Idx) (e2 : S128.Idx → S128.Idx)
    (eo : S10000x128.Idx → S100000x128.Idx)
    (hx0 : ∀ j, x0 j = X (e0 j)) (hx1 : ∀ j, x1 j = W (e1 j)) (hx2 : ∀ j, x2 j = b (e2 j)) (h2 : ∀ j, e2 j = j)
    (h0 : ∀ y k, e0 (rowIdx y k) = rowIdx (eo y) k) (h1 : ∀ y k, e1 (colIdx y k) = colIdx (eo y) k)
    (hcol : ∀ y : S10000x128.Idx, rowZero y = rowZero (eo y))
    (y : S10000x128.Idx) :
    k0_pay1 x0 x1 x2 y = Cert.Layer.projOp (F := Ideal) X W b (eo y) := by
  have ex2 : x2 = b := funext fun j => by rw [hx2, h2]
  subst ex2
  unfold k0_pay1 Cert.Layer.projOp
  rw [reshapeRow_eq x2 shapeCasts_S128_S1x128 Cert.ReferenceIdeal.Facts₀.bcast_S128_S1x128_1]
  exact output_block .bf16 .bf16 dot_S10000x64_S64x128_S10000x128_1_0_0_1_n_n rfl
    Cert.ReferenceIdeal.dot_S100000x64_S64x128_S100000x128_1_0_0_1_n_n rfl none none X W
    (broadcastInDim Cert.ReferenceIdeal.S1x128 ![1] Cert.ReferenceIdeal.Facts₀.bcast_S128_S1x128_1 x2)
    (truncf .bf16 x0 bitsLt_bf16_f32) (truncf .bf16 x1 bitsLt_bf16_f32)
    (broadcastInDim Cert.ReferenceIdeal.S1x128 ![1] Cert.ReferenceIdeal.Facts₀.bcast_S128_S1x128_1 x2)
    e0 e1 id eo hx0 hx1 (fun _ => rfl) h0 h1 (fun y => (hcol y)) broadcasts_S1x128_S10000x128
    Cert.ReferenceIdeal.Facts₀.bcast_S1x128_S100000x128_0_1 y

/-- The block indices of the four windows at a grid point, decided over the grid. -/
theorem idx : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- What grid point `t` writes back is block `t` of the whole-array projection of the arrays the launch finds. -/
theorem flushed (c : Dev nD) (t : Fin cfg0.N) :
    (dat0 V c).flushed 3 t = ((cfg0.win 3).blk t).view.read (Elt Ideal)
      (Cert.Layer.projOp (F := Ideal) (V c main_arg0) (V c main_arg4) (V c main_arg5)) := by
  show (cfg0.win 3).cut (grid0.coords t) ((dat0 V c).after 3 t) = _
  rw [after0_3]
  unfold out0_3
  rw [View.canon_unit_zero hz2]
  simp only [View.ld_unit_zero (S := S10000x64) hz2, View.ld_unit_zero (S := S64x128) hz2, View.ld_unit_zero (S := S128) hz1]
  obtain ⟨i00, i01, i10, i11, i20, i30, i31⟩ := idx t
  funext y
  exact block_apply (V c main_arg0) (V c main_arg4) (V c main_arg5) (iblk0 V c 0 t) (iblk0 V c 1 t) (iblk0 V c 2 t)
    ((cfg0.win 0).blk t).view.emb ((cfg0.win 1).blk t).view.emb ((cfg0.win 2).blk t).view.emb
    ((cfg0.win 3).blk t).view.emb (fun _ => rfl) (fun _ => rfl) (fun _ => rfl)
    (fun j => funext fun a => Fin.ext (by
      match a with
      | ⟨0, _⟩ => show win0_2.index t (0 : Fin 1) * 128 + 1 * (j 0).val = (j 0).val; rw [i20]; omega))
    (fun y k => funext fun a => Fin.ext (by
      match a with
      | ⟨0, _⟩ => show win0_0.index t (0 : Fin 2) * 10000 + 1 * (y 0).val = win0_3.index t (0 : Fin 2) * 10000 + 1 * (y 0).val; rw [i00, i30]
      | ⟨1, _⟩ => show win0_0.index t (1 : Fin 2) * 64 + 1 * k.val = k.val; rw [i01]; omega))
    (fun y k => funext fun a => Fin.ext (by
      match a with
      | ⟨0, _⟩ => show win0_1.index t (0 : Fin 2) * 64 + 1 * k.val = k.val; rw [i10]; omega
      | ⟨1, _⟩ => show win0_1.index t (1 : Fin 2) * 128 + 1 * (y 1).val = win0_3.index t (1 : Fin 2) * 128 + 1 * (y 1).val; rw [i11, i31]))
    (fun y => funext fun a => Fin.ext (by
      match a with
      | ⟨0, _⟩ => rfl
      | ⟨1, _⟩ => show (y 1).val = win0_3.index t (1 : Fin 2) * 128 + 1 * (y 1).val; rw [i31]; omega))
    y

/-- An entry of the output array lies in point `t`'s block exactly when its row is one of the block's. -/
theorem mem_blk (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v0).slice (win0_3.rect t)).set ↔ _
  rw [View.set_slice_whole, Rect.mem_set_unit]
  exact Iff.rfl

/-- The output array after the launch is the whole-array projection: row r is written by point r / 10000. -/
theorem final (c : Dev nD) : (dat0 V c).arrAt 3 cfg0.N
    = Cert.Layer.projOp (F := Ideal) (V c main_arg0) (V c main_arg4) (V c main_arg5) :=
  (dat0 V c).arrAt_eq_of_cover 3 _ (fun t _ => flushed V c t) fun i => by
    have hi0 : (i 0).val < 100000 := (i 0).isLt
    have hi1 : (i 1).val < 128 := (i 1).isLt
    have hN : cfg0.N = 10 := N_0
    have hlt : (i 0).val / 10000 < cfg0.N := by rw [hN]; omega
    obtain ⟨i00, i01, i10, i11, i20, i30, i31⟩ := idx ⟨(i 0).val / 10000, hlt⟩
    refine ⟨⟨(i 0).val / 10000, hlt⟩, flush0_3 _, ?_⟩
    rw [mem_blk]
    intro a
    match a with
    | ⟨0, _⟩ => show win0_3.index ⟨(i 0).val / 10000, hlt⟩ (0 : Fin 2) * 10000 ≤ (i 0).val ∧ (i 0).val < win0_3.index ⟨(i 0).val / 10000, hlt⟩ (0 : Fin 2) * 10000 + 10000; rw [i30]; show (i 0).val / 10000 * 10000 ≤ (i 0).val ∧ (i 0).val < (i 0).val / 10000 * 10000 + 10000; omega
    | ⟨1, _⟩ => show win0_3.index ⟨(i 0).val / 10000, hlt⟩ (1 : Fin 2) * 128 ≤ (i 1).val ∧ (i 1).val < win0_3.index ⟨(i 0).val / 10000, hlt⟩ (1 : Fin 2) * 128 + 128; rw [i31]; omega

end

end Cert.KernelIdeal.Proj0

/-! ## Launch 1: the projection of 2000 rows in 1 block of 2000 -/

namespace Cert.KernelIdeal.Proj1

open Cert.KernelIdeal Cert.KernelIdeal.Gen Cert.Lib.PlainDot Cert.Bridge

theorem hz2 : (![0, 0] : Fin 2 → Nat) = fun _ => 0 := funext fun a => by fin_cases a <;> rfl
theorem hz1 : (![0] : Fin 1 → Nat) = fun _ => 0 := funext fun a => by fin_cases a <;> rfl

/-- One block of the launch, read at an entry: the bias is laid out as one row and stretched over the block's rows,
    the product is taken into a zero accumulator, rounding the operands changes nothing at the ideal values; so the
    entry is the whole-array projection read where the entry sits in the array. -/
theorem block_apply (X : FVec Ideal S2000x64 .f32) (W : FVec Ideal S64x128 .f32) (b : FVec Ideal S128 .f32)
    (x0 : Vec Ideal S2000x64 .f32) (x1 : Vec Ideal S64x128 .f32) (x2 : Vec Ideal S128 .f32)
    (e0 : S2000x64.Idx → S2000x64.Idx) (e1 : S64x128.Idx → S64x128.Idx) (e2 : S128.Idx → S128.Idx)
    (eo : S2000x128.Idx → S2000x128.Idx)
    (hx0 : ∀ j, x0 j = X (e0 j)) (hx1 : ∀ j, x1 j = W (e1 j)) (hx2 : ∀ j, x2 j = b (e2 j)) (h2 : ∀ j, e2 j = j)
    (h0 : ∀ y k, e0 (rowIdx y k) = rowIdx (eo y) k) (h1 : ∀ y k, e1 (colIdx y k) = colIdx (eo y) k)
    (hcol : ∀ y : S2000x128.Idx, rowZero y = rowZero (eo y))
    (y : S2000x128.Idx) :
    k1_pay1 x0 x1 x2 y = Cert.Layer.projM (F := Ideal) X W b (eo y) := by
  have ex2 : x2 = b := funext fun j => by rw [hx2, h2]
  subst ex2
  unfold k1_pay1 Cert.Layer.projM
  rw [reshapeRow_eq x2 shapeCasts_S128_S1x128 Cert.ReferenceIdeal.Facts₀.bcast_S128_S1x128_1]
  exact output_block .bf16 .bf16 dot_S2000x64_S64x128_S2000x128_1_0_0_1_n_n rfl
    Cert.ReferenceIdeal.dot_S2000x64_S64x128_S2000x128_1_0_0_1_n_n rfl none none X W
    (broadcastInDim Cert.ReferenceIdeal.S1x128 ![1] Cert.ReferenceIdeal.Facts₀.bcast_S128_S1x128_1 x2)
    (truncf .bf16 x0 bitsLt_bf16_f32) (truncf .bf16 x1 bitsLt_bf16_f32)
    (broadcastInDim Cert.ReferenceIdeal.S1x128 ![1] Cert.ReferenceIdeal.Facts₀.bcast_S128_S1x128_1 x2)
    e0 e1 id eo hx0 hx1 (fun _ => rfl) h0 h1 (fun y => (hcol y)) broadcasts_S1x128_S2000x128
    Cert.ReferenceIdeal.Facts₀.bcast_S1x128_S2000x128_0_1 y

/-- The block indices of the four windows at a grid point, decided over the grid. -/
theorem idx : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- What grid point `t` writes back is block `t` of the whole-array projection of the arrays the launch finds. -/
theorem flushed (c : Dev nD) (t : Fin cfg1.N) :
    (dat1 V c).flushed 3 t = ((cfg1.win 3).blk t).view.read (Elt Ideal)
      (Cert.Layer.projM (F := Ideal) (V c main_arg1) (V c main_arg6) (V c main_arg7)) := by
  show (cfg1.win 3).cut (grid1.coords t) ((dat1 V c).after 3 t) = _
  rw [after1_3]
  unfold out1_3
  rw [View.canon_unit_zero hz2]
  simp only [View.ld_unit_zero (S := S2000x64) hz2, View.ld_unit_zero (S := S64x128) hz2, View.ld_unit_zero (S := S128) hz1]
  obtain ⟨i00, i01, i10, i11, i20, i30, i31⟩ := idx t
  funext y
  exact block_apply (V c main_arg1) (V c main_arg6) (V c main_arg7) (iblk1 V c 0 t) (iblk1 V c 1 t) (iblk1 V c 2 t)
    ((cfg1.win 0).blk t).view.emb ((cfg1.win 1).blk t).view.emb ((cfg1.win 2).blk t).view.emb
    ((cfg1.win 3).blk t).view.emb (fun _ => rfl) (fun _ => rfl) (fun _ => rfl)
    (fun j => funext fun a => Fin.ext (by
      match a with
      | ⟨0, _⟩ => show win1_2.index t (0 : Fin 1) * 128 + 1 * (j 0).val = (j 0).val; rw [i20]; omega))
    (fun y k => funext fun a => Fin.ext (by
      match a with
      | ⟨0, _⟩ => show win1_0.index t (0 : Fin 2) * 2000 + 1 * (y 0).val = win1_3.index t (0 : Fin 2) * 2000 + 1 * (y 0).val; rw [i00, i30]
      | ⟨1, _⟩ => show win1_0.index t (1 : Fin 2) * 64 + 1 * k.val = k.val; rw [i01]; omega))
    (fun y k => funext fun a => Fin.ext (by
      match a with
      | ⟨0, _⟩ => show win1_1.index t (0 : Fin 2) * 64 + 1 * k.val = k.val; rw [i10]; omega
      | ⟨1, _⟩ => show win1_1.index t (1 : Fin 2) * 128 + 1 * (y 1).val = win1_3.index t (1 : Fin 2) * 128 + 1 * (y 1).val; rw [i11, i31]))
    (fun y => funext fun a => Fin.ext (by
      match a with
      | ⟨0, _⟩ => rfl
      | ⟨1, _⟩ => show (y 1).val = win1_3.index t (1 : Fin 2) * 128 + 1 * (y 1).val; rw [i31]; omega))
    y

/-- An entry of the output array lies in point `t`'s block exactly when its row is one of the block's. -/
theorem mem_blk (t : Fin cfg1.N) (i : S2000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v1).slice (win1_3.rect t)).set ↔ _
  rw [View.set_slice_whole, Rect.mem_set_unit]
  exact Iff.rfl

/-- The output array after the launch is the whole-array projection: row r is written by point r / 2000. -/
theorem final (c : Dev nD) : (dat1 V c).arrAt 3 cfg1.N
    = Cert.Layer.projM (F := Ideal) (V c main_arg1) (V c main_arg6) (V c main_arg7) :=
  (dat1 V c).arrAt_eq_of_cover 3 _ (fun t _ => flushed V c t) fun i => by
    have hi0 : (i 0).val < 2000 := (i 0).isLt
    have hi1 : (i 1).val < 128 := (i 1).isLt
    have hN : cfg1.N = 1 := N_1
    have hlt : (i 0).val / 2000 < cfg1.N := by rw [hN]; omega
    obtain ⟨i00, i01, i10, i11, i20, i30, i31⟩ := idx ⟨(i 0).val / 2000, hlt⟩
    refine ⟨⟨(i 0).val / 2000, hlt⟩, flush1_3 _, ?_⟩
    rw [mem_blk]
    intro a
    match a with
    | ⟨0, _⟩ => show win1_3.index ⟨(i 0).val / 2000, hlt⟩ (0 : Fin 2) * 2000 ≤ (i 0).val ∧ (i 0).val < win1_3.index ⟨(i 0).val / 2000, hlt⟩ (0 : Fin 2) * 2000 + 2000; rw [i30]; show (i 0).val / 2000 * 2000 ≤ (i 0).val ∧ (i 0).val < (i 0).val / 2000 * 2000 + 2000; omega
    | ⟨1, _⟩ => show win1_3.index ⟨(i 0).val / 2000, hlt⟩ (1 : Fin 2) * 128 ≤ (i 1).val ∧ (i 1).val < win1_3.index ⟨(i 0).val / 2000, hlt⟩ (1 : Fin 2) * 128 + 128; rw [i31]; omega

end

end Cert.KernelIdeal.Proj1

end
-- ==== Proof.Combines.lean ====
/-
  The two combining launches as whole-array functions.

  Each launch cuts the rows of its inputs and of its output into the same blocks, and a block of the output is the
  entry-by-entry sum of the input blocks bounded below by zero.  The blocks tile the rows; so after the launch the
  output array is that combination of the whole input arrays, whatever they were when the launch was entered.
-/
import proofs.«137472_j10496900072192_1_alg».proof.Proof.Gen.KernelIdeal.Frame
import proofs.«137472_j10496900072192_1_alg».proof.Proof.Layer
import proofs.«137472_j10496900072192_1_alg».proof.Proof.LibRowBlocks
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

/-! ## Launch 2: max(a + b + c, 0) over 100000 rows in 20 blocks of 5000 -/

namespace Cert.KernelIdeal.Comb2

open Cert.KernelIdeal Cert.KernelIdeal.Gen Cert.Bridge

theorem hz2 : (![0, 0] : Fin 2 → Nat) = fun _ => 0 := funext fun a => by fin_cases a <;> rfl

/-- One block of the launch, read at an entry: the sum of the input blocks' entries, bounded below by zero — the
    whole-array combination read where the entry sits in the array. -/
theorem block_apply (A0 : FVec Ideal S100000x128 .f32) (A1 : FVec Ideal S100000x128 .f32) (A2 : FVec Ideal S100000x128 .f32)
    (x0 : Vec Ideal S5000x128 .f32) (x1 : Vec Ideal S5000x128 .f32) (x2 : Vec Ideal S5000x128 .f32)
    (e0 : S5000x128.Idx → S100000x128.Idx) (e1 : S5000x128.Idx → S100000x128.Idx) (e2 : S5000x128.Idx → S100000x128.Idx) (eo : S5000x128.Idx → S100000x128.Idx)
    (hx0 : ∀ j, x0 j = A0 (e0 j)) (hx1 : ∀ j, x1 j = A1 (e1 j)) (hx2 : ∀ j, x2 j = A2 (e2 j))
    (h0 : ∀ y, e0 y = eo y) (h1 : ∀ y, e1 y = eo y) (h2 : ∀ y, e2 y = eo y)
    (y : S5000x128.Idx) :
    k2_pay1 x0 x1 x2 y = Cert.Layer.outOp (F := Ideal) A0 A1 A2 (eo y) := by
  unfold k2_pay1 Cert.Layer.outOp
  simp only [shapeCast_self]
  rw [maximumf_apply, maximumf_apply, addf_apply, addf_apply, addf_apply, addf_apply, hostSplat_apply, hx0, h0, hx1, h1, hx2, h2]
  rfl

/-- The block indices of the windows at a grid point, decided over the grid: every window moves with the rows. -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-- What grid point `t` writes back is block `t` of the whole-array combination of the arrays the launch finds. -/
theorem flushed (c : Dev nD) (t : Fin cfg2.N) :
    (dat2 V c).flushed 3 t = ((cfg2.win 3).blk t).view.read (Elt Ideal)
      (Cert.Layer.outOp (F := Ideal) (V c main_v0) (V c main_v23) (V c main_v63)) := by
  show (cfg2.win 3).cut (grid2.coords t) ((dat2 V c).after 3 t) = _
  rw [after2_3]
  unfold out2_3
  rw [View.canon_unit_zero hz2]
  simp only [View.ld_unit_zero (S := S5000x128) hz2]
  obtain ⟨i00, i01, i10, i11, i20, i21, i30, i31⟩ := idx t
  funext y
  exact block_apply (V c main_v0) (V c main_v23) (V c main_v63) (iblk2 V c 0 t) (iblk2 V c 1 t) (iblk2 V c 2 t)
    ((cfg2.win 0).blk t).view.emb ((cfg2.win 1).blk t).view.emb ((cfg2.win 2).blk t).view.emb ((cfg2.win 3).blk t).view.emb
    (fun _ => rfl) (fun _ => rfl) (fun _ => rfl)
    (fun y => funext fun a => Fin.ext (by
      match a with
      | ⟨0, _⟩ => show win2_0.index t (0 : Fin 2) * 5000 + 1 * (y 0).val = win2_3.index t (0 : Fin 2) * 5000 + 1 * (y 0).val; rw [i00, i30]
      | ⟨1, _⟩ => show win2_0.index t (1 : Fin 2) * 128 + 1 * (y 1).val = win2_3.index t (1 : Fin 2) * 128 + 1 * (y 1).val; rw [i01, i31]))
    (fun y => funext fun a => Fin.ext (by
      match a with
      | ⟨0, _⟩ => show win2_1.index t (0 : Fin 2) * 5000 + 1 * (y 0).val = win2_3.index t (0 : Fin 2) * 5000 + 1 * (y 0).val; rw [i10, i30]
      | ⟨1, _⟩ => show win2_1.index t (1 : Fin 2) * 128 + 1 * (y 1).val = win2_3.index t (1 : Fin 2) * 128 + 1 * (y 1).val; rw [i11, i31]))
    (fun y => funext fun a => Fin.ext (by
      match a with
      | ⟨0, _⟩ => show win2_2.index t (0 : Fin 2) * 5000 + 1 * (y 0).val = win2_3.index t (0 : Fin 2) * 5000 + 1 * (y 0).val; rw [i20, i30]
      | ⟨1, _⟩ => show win2_2.index t (1 : Fin 2) * 128 + 1 * (y 1).val = win2_3.index t (1 : Fin 2) * 128 + 1 * (y 1).val; rw [i21, i31]))
    y

/-- An entry of the output array lies in point `t`'s block exactly when its row is one of the block's. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v64).slice (win2_3.rect t)).set ↔ _
  rw [View.set_slice_whole, Rect.mem_set_unit]
  exact Iff.rfl

/-- The output array after the launch is the whole-array combination: row r is written by point r / 5000. -/
theorem final (c : Dev nD) : (dat2 V c).arrAt 3 cfg2.N
    = Cert.Layer.outOp (F := Ideal) (V c main_v0) (V c main_v23) (V c main_v63) :=
  (dat2 V c).arrAt_eq_of_cover 3 _ (fun t _ => flushed V c t) fun i => by
    have hi0 : (i 0).val < 100000 := (i 0).isLt
    have hi1 : (i 1).val < 128 := (i 1).isLt
    have hN : cfg2.N = 20 := N_2
    have hlt : (i 0).val / 5000 < cfg2.N := by rw [hN]; omega
    obtain ⟨i00, i01, i10, i11, i20, i21, i30, i31⟩ := idx ⟨(i 0).val / 5000, hlt⟩
    refine ⟨⟨(i 0).val / 5000, hlt⟩, flush2_3 _, ?_⟩
    rw [mem_blk]
    intro a
    match a with
    | ⟨0, _⟩ => show win2_3.index ⟨(i 0).val / 5000, hlt⟩ (0 : Fin 2) * 5000 ≤ (i 0).val ∧ (i 0).val < win2_3.index ⟨(i 0).val / 5000, hlt⟩ (0 : Fin 2) * 5000 + 5000; rw [i30]; show (i 0).val / 5000 * 5000 ≤ (i 0).val ∧ (i 0).val < (i 0).val / 5000 * 5000 + 5000; omega
    | ⟨1, _⟩ => show win2_3.index ⟨(i 0).val / 5000, hlt⟩ (1 : Fin 2) * 128 ≤ (i 1).val ∧ (i 1).val < win2_3.index ⟨(i 0).val / 5000, hlt⟩ (1 : Fin 2) * 128 + 128; rw [i31]; omega

end

end Cert.KernelIdeal.Comb2

/-! ## Launch 3: max(a + b, 0) over 2000 rows in 1 block of 2000 -/

namespace Cert.KernelIdeal.Comb3

open Cert.KernelIdeal Cert.KernelIdeal.Gen Cert.Bridge

theorem hz2 : (![0, 0] : Fin 2 → Nat) = fun _ => 0 := funext fun a => by fin_cases a <;> rfl

/-- One block of the launch, read at an entry: the sum of the input blocks' entries, bounded below by zero — the
    whole-array combination read where the entry sits in the array. -/
theorem block_apply (A0 : FVec Ideal S2000x128 .f32) (A1 : FVec Ideal S2000x128 .f32)
    (x0 : Vec Ideal S2000x128 .f32) (x1 : Vec Ideal S2000x128 .f32)
    (e0 : S2000x128.Idx → S2000x128.Idx) (e1 : S2000x128.Idx → S2000x128.Idx) (eo : S2000x128.Idx → S2000x128.Idx)
    (hx0 : ∀ j, x0 j = A0 (e0 j)) (hx1 : ∀ j, x1 j = A1 (e1 j))
    (h0 : ∀ y, e0 y = eo y) (h1 : ∀ y, e1 y = eo y)
    (y : S2000x128.Idx) :
    k3_pay1 x0 x1 y = Cert.Layer.outM (F := Ideal) A0 A1 (eo y) := by
  unfold k3_pay1 Cert.Layer.outM
  simp only [shapeCast_self]
  rw [maximumf_apply, maximumf_apply, addf_apply, addf_apply, hostSplat_apply, hx0, h0, hx1, h1]
  rfl

/-- The block indices of the windows at a grid point, decided over the grid: every window moves with the rows. -/
theorem idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b))

/-- What grid point `t` writes back is block `t` of the whole-array combination of the arrays the launch finds. -/
theorem flushed (c : Dev nD) (t : Fin cfg3.N) :
    (dat3 V c).flushed 2 t = ((cfg3.win 2).blk t).view.read (Elt Ideal)
      (Cert.Layer.outM (F := Ideal) (V c main_v1) (V c main_v45)) := by
  show (cfg3.win 2).cut (grid3.coords t) ((dat3 V c).after 2 t) = _
  rw [after3_2]
  unfold out3_2
  rw [View.canon_unit_zero hz2]
  simp only [View.ld_unit_zero (S := S2000x128) hz2]
  obtain ⟨i00, i01, i10, i11, i20, i21⟩ := idx t
  funext y
  exact block_apply (V c main_v1) (V c main_v45) (iblk3 V c 0 t) (iblk3 V c 1 t)
    ((cfg3.win 0).blk t).view.emb ((cfg3.win 1).blk t).view.emb ((cfg3.win 2).blk t).view.emb
    (fun _ => rfl) (fun _ => rfl)
    (fun y => funext fun a => Fin.ext (by
      match a with
      | ⟨0, _⟩ => show win3_0.index t (0 : Fin 2) * 2000 + 1 * (y 0).val = win3_2.index t (0 : Fin 2) * 2000 + 1 * (y 0).val; rw [i00, i20]
      | ⟨1, _⟩ => show win3_0.index t (1 : Fin 2) * 128 + 1 * (y 1).val = win3_2.index t (1 : Fin 2) * 128 + 1 * (y 1).val; rw [i01, i21]))
    (fun y => funext fun a => Fin.ext (by
      match a with
      | ⟨0, _⟩ => show win3_1.index t (0 : Fin 2) * 2000 + 1 * (y 0).val = win3_2.index t (0 : Fin 2) * 2000 + 1 * (y 0).val; rw [i10, i20]
      | ⟨1, _⟩ => show win3_1.index t (1 : Fin 2) * 128 + 1 * (y 1).val = win3_2.index t (1 : Fin 2) * 128 + 1 * (y 1).val; rw [i11, i21]))
    y

/-- An entry of the output array lies in point `t`'s block exactly when its row is one of the block's. -/
theorem mem_blk (t : Fin cfg3.N) (i : S2000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v65).slice (win3_2.rect t)).set ↔ _
  rw [View.set_slice_whole, Rect.mem_set_unit]
  exact Iff.rfl

/-- The output array after the launch is the whole-array combination: row r is written by point r / 2000. -/
theorem final (c : Dev nD) : (dat3 V c).arrAt 2 cfg3.N
    = Cert.Layer.outM (F := Ideal) (V c main_v1) (V c main_v45) :=
  (dat3 V c).arrAt_eq_of_cover 2 _ (fun t _ => flushed V c t) fun i => by
    have hi0 : (i 0).val < 2000 := (i 0).isLt
    have hi1 : (i 1).val < 128 := (i 1).isLt
    have hN : cfg3.N = 1 := N_3
    have hlt : (i 0).val / 2000 < cfg3.N := by rw [hN]; omega
    obtain ⟨i00, i01, i10, i11, i20, i21⟩ := idx ⟨(i 0).val / 2000, hlt⟩
    refine ⟨⟨(i 0).val / 2000, hlt⟩, flush3_2 _, ?_⟩
    rw [mem_blk]
    intro a
    match a with
    | ⟨0, _⟩ => show win3_2.index ⟨(i 0).val / 2000, hlt⟩ (0 : Fin 2) * 2000 ≤ (i 0).val ∧ (i 0).val < win3_2.index ⟨(i 0).val / 2000, hlt⟩ (0 : Fin 2) * 2000 + 2000; rw [i20]; show (i 0).val / 2000 * 2000 ≤ (i 0).val ∧ (i 0).val < (i 0).val / 2000 * 2000 + 2000; omega
    | ⟨1, _⟩ => show win3_2.index ⟨(i 0).val / 2000, hlt⟩ (1 : Fin 2) * 128 ≤ (i 1).val ∧ (i 1).val < win3_2.index ⟨(i 0).val / 2000, hlt⟩ (1 : Fin 2) * 128 + 128; rw [i21]; omega

end

end Cert.KernelIdeal.Comb3

end
-- ==== Proof.Mid.lean ====
/-
  The host operations between the projections and the combining launches.

  Between the second and the third launch the program runs its gathers, scatter-adds, degree counts and divisions on
  the host, in seven consecutive stretches.  From any buffer contents `W` at the start, the three aggregated
  arrays they leave are the layer's three mean aggregations of the projections and edge lists found in `W`, and the
  projections themselves are left as they were.
-/
import proofs.«137472_j10496900072192_1_alg».proof.Proof.Gen.KernelIdeal.Launch
import proofs.«137472_j10496900072192_1_alg».proof.Proof.Layer
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Mid

open Cert.KernelIdeal Cert.KernelIdeal.Gen

variable {F : FTy → Type} [FloatOps F]

/-- The buffer contents after the seven host stretches, in order, from contents `W`. -/
abbrev afterHost (W : Valuation τ sig (Elt F)) : Valuation τ sig (Elt F) :=
  StableHlo.after hostOps2_6 (StableHlo.after hostOps2_5 (StableHlo.after hostOps2_4 (StableHlo.after hostOps2_3
    (StableHlo.after hostOps2_2 (StableHlo.after hostOps2_1 (StableHlo.after hostOps2 W))))))

/-- No host operation writes the operator projection. -/
theorem keep_v0 (W : Valuation τ sig (Elt F)) :
    afterHost W (Proc.devRef .tc main_v0) = W (Proc.devRef .tc main_v0) := by
  dsimp only [afterHost, hostOps2, hostOps2_1, hostOps2_2, hostOps2_3, hostOps2_4, hostOps2_5, hostOps2_6]
  after_results_simp

/-- No host operation writes the machine projection. -/
theorem keep_v1 (W : Valuation τ sig (Elt F)) :
    afterHost W (Proc.devRef .tc main_v1) = W (Proc.devRef .tc main_v1) := by
  dsimp only [afterHost, hostOps2, hostOps2_1, hostOps2_2, hostOps2_3, hostOps2_4, hostOps2_5, hostOps2_6]
  after_results_simp

/-- The first aggregated array is the mean over the sequence edges of the operator projection found in `W`. -/
theorem v23 (W : Valuation τ sig (Elt F)) :
    afterHost W (Proc.devRef .tc main_v23) = Cert.Layer.aggSeq (W (Proc.devRef .tc main_v0)) (W (Proc.devRef .tc main_arg2)) := by
  dsimp only [afterHost, hostOps2, hostOps2_1, hostOps2_2, hostOps2_3, hostOps2_4, hostOps2_5, hostOps2_6]
  after_results_simp
  rfl

/-- The second aggregated array is the mean, over the operator → machine edges, of the operator projection found in `W`. -/
theorem v45 (W : Valuation τ sig (Elt F)) :
    afterHost W (Proc.devRef .tc main_v45) = Cert.Layer.aggToM (W (Proc.devRef .tc main_v0)) (W (Proc.devRef .tc main_arg3)) := by
  dsimp only [afterHost, hostOps2, hostOps2_1, hostOps2_2, hostOps2_3, hostOps2_4, hostOps2_5, hostOps2_6]
  after_results_simp
  rfl

/-- The third aggregated array is the mean, over the same edges reversed, of the machine projection found in `W`. -/
theorem v63 (W : Valuation τ sig (Elt F)) :
    afterHost W (Proc.devRef .tc main_v63) = Cert.Layer.aggToOp (W (Proc.devRef .tc main_v1)) (W (Proc.devRef .tc main_arg3)) := by
  dsimp only [afterHost, hostOps2, hostOps2_1, hostOps2_2, hostOps2_3, hostOps2_4, hostOps2_5, hostOps2_6]
  after_results_simp
  rfl

end Cert.KernelIdeal.Mid

end
-- ==== Proof.KRun.lean ====
/-
  The kernel program's run with its two result buffers named.

  The program is four kernel launches with one stretch of host operations between the second and the third.
  The buffer contents at every boundary are the fold `W0 … W11` (launch memory, then each launch's arrays at what
  its write-backs leave, then each host stretch applied); the run ends with every unscoped buffer at `W11`.  Here
  that reading is taken at the two result buffers as well as at the eight arguments.
-/
import proofs.«137472_j10496900072192_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two results end at the last
    boundary's contents and the arguments end as launched. -/
theorem run_main : θ_run defs (onTc (τ := τ) (main (F := F))) ⟨m, fun _ => 0, ρ⟩ (fun r => ∀ c : Dev nD,
      r.2.mem ((c.tc : Thread nD τ).loc main_v64) = W11 m ρ c (Proc.devRef .tc main_v64)
      ∧ r.2.mem ((c.tc : Thread nD τ).loc main_v65) = W11 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v64 (by decide)),
       h c _ (mem_uc main_v65 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Whole

end
-- ==== Proof.KValue.lean ====
/-
  What the kernel program's two result buffers hold after the run, as functions of the arguments.

  The boundary contents are followed backwards from the last one.  The third launch leaves max(a + b + c, 0) of the
  three arrays it finds; those are the operator projection (left by the first launch, untouched by the host
  operations) and two of the host's mean aggregations, which the host computed from the projections the first two
  launches left and from the edge lists, themselves still as launched.  The fourth launch likewise.  Put together,
  each result is the layer's function of the eight arguments.
-/
import proofs.«137472_j10496900072192_1_alg».proof.Proof.Gen.KernelIdeal.Frame
import proofs.«137472_j10496900072192_1_alg».proof.Proof.Layer
import proofs.«137472_j10496900072192_1_alg».proof.Proof.Projections
import proofs.«137472_j10496900072192_1_alg».proof.Proof.Combines
import proofs.«137472_j10496900072192_1_alg».proof.Proof.Mid
import proofs.«137472_j10496900072192_1_alg».proof.Proof.KRun

set_option maxRecDepth 16384

noncomputable section

open Idealize.ShloMosaic Idealize.ShloMosaic.TcCoe Idealize.SL.Sem

namespace Cert.KernelIdeal.Whole

open Cert.KernelIdeal Cert.KernelIdeal.Gen

variable (m : (ℓ : Loc nD τ sig) → Buf (Elt Ideal) ℓ) (ρ : Dev nD → PrngReg)

/-! ### The arguments at the boundaries they are read at -/

theorem W0_arg0 (c : Dev nD) : W0 m ρ c (Proc.devRef .tc main_arg0) = m ((c.tc : Thread nD τ).loc main_arg0) := rfl
theorem W0_arg4 (c : Dev nD) : W0 m ρ c (Proc.devRef .tc main_arg4) = m ((c.tc : Thread nD τ).loc main_arg4) := rfl
theorem W0_arg5 (c : Dev nD) : W0 m ρ c (Proc.devRef .tc main_arg5) = m ((c.tc : Thread nD τ).loc main_arg5) := rfl
theorem W1_arg1 (c : Dev nD) : W1 m ρ c (Proc.devRef .tc main_arg1) = m ((c.tc : Thread nD τ).loc main_arg1) :=
  W1_of_ne m ρ c main_arg1 (by decide)
theorem W1_arg6 (c : Dev nD) : W1 m ρ c (Proc.devRef .tc main_arg6) = m ((c.tc : Thread nD τ).loc main_arg6) :=
  W1_of_ne m ρ c main_arg6 (by decide)
theorem W1_arg7 (c : Dev nD) : W1 m ρ c (Proc.devRef .tc main_arg7) = m ((c.tc : Thread nD τ).loc main_arg7) :=
  W1_of_ne m ρ c main_arg7 (by decide)
theorem W2_arg2 (c : Dev nD) : W2 m ρ c (Proc.devRef .tc main_arg2) = m ((c.tc : Thread nD τ).loc main_arg2) :=
  (W2_of_ne m ρ c main_arg2 (by decide)).trans (W1_of_ne m ρ c main_arg2 (by decide))
theorem W2_arg3 (c : Dev nD) : W2 m ρ c (Proc.devRef .tc main_arg3) = m ((c.tc : Thread nD τ).loc main_arg3) :=
  (W2_of_ne m ρ c main_arg3 (by decide)).trans (W1_of_ne m ρ c main_arg3 (by decide))

/-! ### The projections after the first two launches -/

/-- After the second launch the operator projection's buffer holds X_op · W_op + b_op of the arguments. -/
theorem W2_v0 (c : Dev nD) : W2 m ρ c (Proc.devRef .tc main_v0) = Cert.Layer.projOp (m ((c.tc : Thread nD τ).loc main_arg0)) (m ((c.tc : Thread nD τ).loc main_arg4)) (m ((c.tc : Thread nD τ).loc main_arg5)) :=
  (W2_of_ne m ρ c main_v0 (by decide)).trans ((W1_arr m ρ c 3).trans (Cert.KernelIdeal.Proj0.final (V0 m ρ) c))

/-- After the second launch the machine projection's buffer holds X_m · W_m + b_m of the arguments. -/
theorem W2_v1 (c : Dev nD) : W2 m ρ c (Proc.devRef .tc main_v1) = Cert.Layer.projM (m ((c.tc : Thread nD τ).loc main_arg1)) (m ((c.tc : Thread nD τ).loc main_arg6)) (m ((c.tc : Thread nD τ).loc main_arg7)) := by
  refine (W2_arr m ρ c 3).trans ((Cert.KernelIdeal.Proj1.final (V1 m ρ) c).trans ?_)
  show Cert.Layer.projM (W1 m ρ c (Proc.devRef .tc main_arg1)) (W1 m ρ c (Proc.devRef .tc main_arg6)) (W1 m ρ c (Proc.devRef .tc main_arg7)) = _
  rw [W1_arg1, W1_arg6, W1_arg7]

/-! ### The arrays the last two launches find -/

theorem W9_v0 (c : Dev nD) : W9 m ρ c (Proc.devRef .tc main_v0) = Cert.Layer.projOp (m ((c.tc : Thread nD τ).loc main_arg0)) (m ((c.tc : Thread nD τ).loc main_arg4)) (m ((c.tc : Thread nD τ).loc main_arg5)) :=
  (Cert.KernelIdeal.Mid.keep_v0 (W2 m ρ c)).trans (W2_v0 m ρ c)

theorem W9_v1 (c : Dev nD) : W9 m ρ c (Proc.devRef .tc main_v1) = Cert.Layer.projM (m ((c.tc : Thread nD τ).loc main_arg1)) (m ((c.tc : Thread nD τ).loc main_arg6)) (m ((c.tc : Thread nD τ).loc main_arg7)) :=
  (Cert.KernelIdeal.Mid.keep_v1 (W2 m ρ c)).trans (W2_v1 m ρ c)

theorem W9_v23 (c : Dev nD) : W9 m ρ c (Proc.devRef .tc main_v23)
    = Cert.Layer.aggSeq (Cert.Layer.projOp (m ((c.tc : Thread nD τ).loc main_arg0)) (m ((c.tc : Thread nD τ).loc main_arg4)) (m ((c.tc : Thread nD τ).loc main_arg5))) (m ((c.tc : Thread nD τ).loc main_arg2)) := by
  refine (Cert.KernelIdeal.Mid.v23 (W2 m ρ c)).trans ?_
  rw [W2_v0, W2_arg2]

theorem W9_v45 (c : Dev nD) : W9 m ρ c (Proc.devRef .tc main_v45)
    = Cert.Layer.aggToM (Cert.Layer.projOp (m ((c.tc : Thread nD τ).loc main_arg0)) (m ((c.tc : Thread nD τ).loc main_arg4)) (m ((c.tc : Thread nD τ).loc main_arg5))) (m ((c.tc : Thread nD τ).loc main_arg3)) := by
  refine (Cert.KernelIdeal.Mid.v45 (W2 m ρ c)).trans ?_
  rw [W2_v0, W2_arg3]

theorem W9_v63 (c : Dev nD) : W9 m ρ c (Proc.devRef .tc main_v63)
    = Cert.Layer.aggToOp (Cert.Layer.projM (m ((c.tc : Thread nD τ).loc main_arg1)) (m ((c.tc : Thread nD τ).loc main_arg6)) (m ((c.tc : Thread nD τ).loc main_arg7))) (m ((c.tc : Thread nD τ).loc main_arg3)) := by
  refine (Cert.KernelIdeal.Mid.v63 (W2 m ρ c)).trans ?_
  rw [W2_v1, W2_arg3]

/-! ### The results -/

/-- The first result buffer ends at the layer's first result function of the arguments. -/
theorem W11_v64 (c : Dev nD) : W11 m ρ c (Proc.devRef .tc main_v64)
    = Cert.Layer.resultOp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W11_of_ne m ρ c main_v64 (by decide)).trans ((W10_arr m ρ c 3).trans ((Cert.KernelIdeal.Comb2.final (V9 m ρ) c).trans ?_))
  show Cert.Layer.outOp (W9 m ρ c (Proc.devRef .tc main_v0)) (W9 m ρ c (Proc.devRef .tc main_v23)) (W9 m ρ c (Proc.devRef .tc main_v63)) = _
  rw [W9_v0, W9_v23, W9_v63]
  rfl

/-- The second result buffer ends at the layer's second result function of the arguments. -/
theorem W11_v65 (c : Dev nD) : W11 m ρ c (Proc.devRef .tc main_v65)
    = Cert.Layer.resultM (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W11_arr m ρ c 2).trans ((Cert.KernelIdeal.Comb3.final (V10 m ρ) c).trans ?_)
  show Cert.Layer.outM (W10 m ρ c (Proc.devRef .tc main_v1)) (W10 m ρ c (Proc.devRef .tc main_v45)) = _
  rw [W10_of_ne m ρ c main_v1 (by decide), W10_of_ne m ρ c main_v45 (by decide), W9_v1, W9_v45]
  rfl

/-- The kernel program's run with both results stated as the layer's functions of the arguments. -/
theorem run : θ_run defs (onTc (τ := τ) (main (F := Ideal))) ⟨m, fun _ => 0, ρ⟩ fun r => ∀ c : Dev nD,
      r.2.mem ((c.tc : Thread nD τ).loc main_v64) = Cert.Layer.resultOp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v65) = Cert.Layer.resultM (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (W11_v64 m ρ c), (h c).2.1.trans (W11_v65 m ρ c), (h c).2.2⟩)
    (run_main m ρ)

end Cert.KernelIdeal.Whole

end
-- ==== Proof.lean ====
/-
  The kernel and the reference compute the same layer.

  Operator features X_op [100000, 64] and machine features X_m [2000, 64] are projected to 128 columns
  (P = X · W + b); three mean aggregations run over the sequence edges and, in both directions, over the
  operator–machine edges (gather the source rows, add them into their destination rows, divide every destination row
  by its in-degree clipped below at 1); the outputs are max(P_op + A_seq + A_m→op, 0) and max(P_m + A_op→m, 0).

  The kernel computes the two projections and the two outputs in four tiled launches and leaves the aggregations to
  the host, with exactly the reference's operations.  At the ideal values a row block of a projection is the block of
  X · W + b (the product into a zero accumulator is the plain sum over the 64 columns; rounding the operands to a
  narrower format is the identity), and a row block of an output is the block of the entry-by-entry combination; the
  blocks tile the rows.  So both programs end with the same two functions of the eight arguments, term for term — no
  law of arithmetic beyond that is used, and finiteness of the inputs is never needed.
-/
import proofs.«137472_j10496900072192_1_alg».proof.Defs
import proofs.«137472_j10496900072192_1_alg».proof.Proof.Gen.Kernel
import proofs.«137472_j10496900072192_1_alg».proof.Proof.Gen.Kernel.Frame
import proofs.«137472_j10496900072192_1_alg».proof.Proof.Gen.KernelIdeal
import proofs.«137472_j10496900072192_1_alg».proof.Proof.Gen.KernelIdeal.Frame
import proofs.«137472_j10496900072192_1_alg».proof.Proof.Gen.ReferenceIdeal
import proofs.«137472_j10496900072192_1_alg».proof.Proof.Gen.Pre_finite_inputs
import proofs.«137472_j10496900072192_1_alg».proof.Proof.RefSide
import proofs.«137472_j10496900072192_1_alg».proof.Proof.KValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2)
    (Cert.ReferenceIdeal.Whole.run (F := Ideal) m ρ)

/-- The ideal pass rewrote nothing. -/
theorem preserves : Cert.preserves_Kernel_KernelIdeal := trivial

/-- Both runs end with the layer's two result functions of the arguments, and the arguments agree. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Whole.run (F := Ideal) m' ρ')
  · obtain ⟨e0, e1, e2, e3, e4, e5, e6, e7⟩ := hagree c
    rw [e0, e1, e2, e3, e4, e5, e6, e7]
  · obtain ⟨e0, e1, e2, e3, e4, e5, e6, e7⟩ := hagree c
    rw [e0, e1, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
